-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S50000x128 .f32) (main_arg1 : IVec S2x800000 32) (main_arg2 : FVec F S3x128x128 .f32) (main_arg3 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 89
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S1x128x128, .f32⟩
  | .hbm, ⟨43, _⟩ => ⟨S128x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S1x128x128, .f32⟩
  | .hbm, ⟨63, _⟩ => ⟨S128x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S50000x128, .f32⟩
  | .hbm, ⟨88, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51_0 : Ref sig .tc := ⟨.hbm, 67, rfl⟩
abbrev main_v51_1 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67_0 : Ref sig .tc := ⟨.hbm, 87, rfl⟩
abbrev main_v67_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v35_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v51_1) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v67_1) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x128x128, .f32⟩
  | .hbm, ⟨50, _⟩ => ⟨S128x128, .f32⟩
  | .hbm, ⟨51, _⟩ => ⟨S50000x128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S1x128x128, .f32⟩
  | .hbm, ⟨77, _⟩ => ⟨S128x128, .f32⟩
  | .hbm, ⟨78, _⟩ => ⟨S50000x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S50000x1, .f32⟩
  | .hbm, ⟨101, _⟩ => ⟨S50000x128, .f32⟩
  | .hbm, ⟨102, _⟩ => ⟨S50000x128, .f32⟩
  | .hbm, ⟨103, _⟩ => ⟨S1x128x128, .f32⟩
  | .hbm, ⟨104, _⟩ => ⟨S128x128, .f32⟩
  | .hbm, ⟨105, _⟩ => ⟨S50000x128, .f32⟩
  | .hbm, ⟨106, _⟩ => ⟨S1x128, .f32⟩
  | .hbm, ⟨107, _⟩ => ⟨S128, .f32⟩
  | .hbm, ⟨108, _⟩ => ⟨S1x128, .f32⟩
  | .hbm, ⟨109, _⟩ => ⟨S50000x128, .f32⟩
  | .hbm, ⟨110, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_c_9 : Ref sig .tc := ⟨.hbm, 87, rfl⟩
abbrev main_v72 : Ref sig .tc := ⟨.hbm, 88, rfl⟩
abbrev main_v73 : Ref sig .tc := ⟨.hbm, 89, rfl⟩
abbrev main_c_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_11 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel program's run with its result array named: every weakly fair execution of @main terminates,
  faults nowhere, leaves the four argument arrays as launched, and leaves in the result array what the last of the four
  regions wrote back there — the contents `W8` of the last segment boundary, read at the result's buffer.
-/
import proofs.«124276_j43765716746406_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the eight segments of @main (four stretches of host operations, four regions), its last thread state
    read against the final memory at the result's buffer and at each argument's. -/
theorem run_named : θ_run defs (onTc (τ := τ) (main (F := F))) ⟨m, fun _ => 0, ρ⟩ (fun r => ∀ c : Dev nD,
      r.2.mem ((c.tc : Thread nD τ).loc main_v67_0) = W8 m ρ c (Proc.devRef .tc main_v67_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v67_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.Named

end
-- ==== Proof.Payload.lean ====
/-
  What the two kernel bodies compute on one block of 5000 rows, read at an entry (row `p`, feature `q`):
  the scaling body gives `x[p,q] · s[p]`; the layer body gives `(∑ k, (x[p,k] · n[p]) · w[k,q]) + b[q]` and, for its
  second result, that value times `s[p]`. Roundings to bf16 on the way into the matrix product are the identity on
  the extended reals, and the product into a zero accumulator is the plain sum.
-/
import proofs.«124276_j43765716746406_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- A column of 5000 entries spread over 128 features, read at (p, q): the column's entry p. -/
theorem col_apply (x : Vec Ideal S5000x1 .f32) (p : Fin 5000) (q : Fin 128) :
    broadcastTo S5000x128 (shapeCast S5000x1 x shapeCasts_S5000x1_S5000x1) broadcasts_S5000x1_S5000x128 (ix2 p q)
      = x (ix2 p 0) := by
  rw [shapeCast_self]
  refine broadcastTo_apply x _ (ix2 p q) (ix2 p 0) fun a => ?_
  match a with
  | ⟨0, _⟩ => show p.val = if (5000 : Nat) = 1 then 0 else p.val; rw [if_neg (by decide)]
  | ⟨1, _⟩ => show 0 = if (1 : Nat) = 1 then 0 else q.val; rw [if_pos rfl]

/-- A row of 128 entries repeated over 5000 rows, read at (p, q): the row's entry q. -/
theorem row_apply (x : Vec Ideal S1x128 .f32) (p : Fin 5000) (q : Fin 128) :
    broadcastTo S5000x128 (shapeCast S1x128 x shapeCasts_S1x128_S1x128) broadcasts_S1x128_S5000x128 (ix2 p q)
      = x (ix2 0 q) := by
  rw [shapeCast_self]
  refine broadcastTo_apply x _ (ix2 p q) (ix2 0 q) fun a => ?_
  match a with
  | ⟨0, _⟩ => show 0 = if (1 : Nat) = 1 then 0 else p.val; rw [if_pos rfl]
  | ⟨1, _⟩ => show q.val = if (128 : Nat) = 1 then 0 else q.val; rw [if_neg (by decide)]

/-- The scaling body at an entry. -/
theorem pay_scale_apply (x : Vec Ideal S5000x128 .f32) (s : Vec Ideal S5000x1 .f32) (p : Fin 5000) (q : Fin 128) :
    k0_pay1 x s (ix2 p q) = x (ix2 p q) * s (ix2 p 0) := by
  unfold k0_pay1
  show x (ix2 p q) * _ = _
  rw [col_apply]

/-- Where the matrix product reads its left operand: row of the entry, contracted position. -/
theorem lhs_0 (i : S5000x128.Idx) (r : dot_S5000x128_S128x128_S5000x128_1_0_0_1_n_n.contr.Idx) : (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (r : dot_S5000x128_S128x128_S5000x128_1_0_0_1_n_n.contr.Idx) : (dot_S5000x128_S128x128_S5000x128_1_0_0_1_n_n.lhsIdx i r 1).val = (r ⟨0, by decide⟩).val :=
  dot_S5000x128_S128x128_S5000x128_1_0_0_1_n_n.lhsIdx_val_of_single rfl i r
/-- Where it reads its right operand: contracted position, feature of the entry. -/
theorem rhs_0 (i : S5000x128.Idx) (r : dot_S5000x128_S128x128_S5000x128_1_0_0_1_n_n.contr.Idx) : (dot_S5000x128_S128x128_S5000x128_1_0_0_1_n_n.rhsIdx i r 0).val = (r ⟨0, by decide⟩).val :=
  dot_S5000x128_S128x128_S5000x128_1_0_0_1_n_n.rhsIdx_val_of_single rfl i r
theorem rhs_1 (i : S5000x128.Idx) (r : dot_S5000x128_S128x128_S5000x128_1_0_0_1_n_n.contr.Idx) : (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product of a block with the weights into a zero accumulator, at an entry: the sum over the 128
    contracted positions. -/
theorem matmul_block_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The layer body's first result at an entry. -/
theorem pay_layer_apply (x : Vec Ideal S5000x128 .f32) (n : Vec Ideal S5000x1 .f32) (w : Vec Ideal S128x128 .f32)
    (b : Vec Ideal S1x128 .f32) (p : Fin 5000) (q : Fin 128) :
    k1_pay1 x n w b (ix2 p q) = (∑ k : Fin 128, (x (ix2 p k) * n (ix2 p 0)) * w (ix2 k q)) + b (ix2 0 q) := by
  unfold k1_pay1
  show matmul dot_S5000x128_S128x128_S5000x128_1_0_0_1_n_n none _ _ (constant S5000x128 .f32 0x00000000#32) (ix2 p q) + _ = _
  rw [matmul_block_apply, row_apply]
  refine congrArg (· + b (ix2 0 q)) (Finset.sum_congr rfl fun k _ => ?_)
  show (shapeCast S5000x128 x shapeCasts_S5000x128_S5000x128 (ix2 p k) * _) * shapeCast S128x128 w shapeCasts_S128x128_S128x128 (ix2 k q) = _
  rw [col_apply, shapeCast_self, shapeCast_self]

/-- The layer body's second result at an entry: the first times the out-degree factor of the row. -/
theorem pay_layer_scaled_apply (x : Vec Ideal S5000x128 .f32) (n : Vec Ideal S5000x1 .f32) (w : Vec Ideal S128x128 .f32)
    (b : Vec Ideal S1x128 .f32) (s : Vec Ideal S5000x1 .f32) (p : Fin 5000) (q : Fin 128) :
    k1_pay2 x n w b s (ix2 p q)
      = ((∑ k : Fin 128, (x (ix2 p k) * n (ix2 p 0)) * w (ix2 k q)) + b (ix2 0 q)) * s (ix2 p 0) := by
  unfold k1_pay2
  show k1_pay1 x n w b (ix2 p q) * _ = _
  rw [pay_layer_apply, col_apply]

/-- The three layer kernels have one body. -/
theorem k2_pay2_eq (x : Vec Ideal S5000x128 .f32) (n : Vec Ideal S5000x1 .f32) (w : Vec Ideal S128x128 .f32)
    (b : Vec Ideal S1x128 .f32) (s : Vec Ideal S5000x1 .f32) : k2_pay2 x n w b s = k1_pay2 x n w b s := rfl
theorem k3_pay1_eq (x : Vec Ideal S5000x128 .f32) (n : Vec Ideal S5000x1 .f32) (w : Vec Ideal S128x128 .f32)
    (b : Vec Ideal S1x128 .f32) : k3_pay1 x n w b = k1_pay1 x n w b := rfl

end Cert.KernelIdeal.Pay

end
-- ==== Proof.Spec.lean ====
/-
  The two whole-array functions the graph convolution is made of, index by index on the extended reals.
  One layer takes the aggregated features `a` (one row per node), the column `n` of in-degree factors, the weight
  matrix `w` and the bias row `b`, and gives, at node `r` and feature `j`,
      (∑ k, (a[r,k] · n[r]) · w[k,j]) + b[j];
  a row scaling multiplies every entry of row `r` by the column's entry `n[r]`.
-/
import proofs.«124276_j43765716746406_1_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal

/-- Row `r` of `h` multiplied by the column's entry `n[r]`. -/
def rowScale (h : FVec Ideal S50000x128 .f32) (n : FVec Ideal S50000x1 .f32) : FVec Ideal S50000x128 .f32 :=
  fun i => h i * n (ix2 (n0 := 50000) (n1 := 1) (i 0) 0)

/-- One dense layer on row-scaled input: `(∑ k, (a[r,k] · n[r]) · w[k,j]) + b[j]`. -/
def layer (a : FVec Ideal S50000x128 .f32) (n : FVec Ideal S50000x1 .f32) (w : FVec Ideal S128x128 .f32)
    (b : FVec Ideal S1x128 .f32) : FVec Ideal S50000x128 .f32 :=
  fun i => (∑ k : Fin 128, (a (ix2 (n0 := 50000) (n1 := 128) (i 0) k) * n (ix2 (n0 := 50000) (n1 := 1) (i 0) 0))
      * w (ix2 (n0 := 128) (n1 := 128) k (i 1))) + b (ix2 (n0 := 1) (n1 := 128) 0 (i 1))

end Cert.Gcn

end
-- ==== Proof.Blocks0.lean ====
/-
  The scaling kernel's result array, whole: ten blocks of 5000 rows, block `t` written by grid point `t` from rows
  5000·t … 5000·t + 4999 of the feature array and of the column of out-degree factors. Every entry of the result is
  the feature entry times its row's factor, whatever the contents `V` the region is entered with.
-/
import proofs.«124276_j43765716746406_1_alg».proof.Proof.Gen.KernelIdeal.Frame
import proofs.«124276_j43765716746406_1_alg».proof.Proof.Payload
import proofs.«124276_j43765716746406_1_alg».proof.Proof.Spec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window of the scaling kernel moves with the grid point along the rows and stays at column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The feature window's block at point `t`, entry (p, q): the array's entry (5000·t + p, q). -/
theorem iblk0_0_apply (c : Dev nD) (t : Fin cfg0.N) (p : Fin 5000) (q : Fin 128) (i : S50000x128.Idx)
    (h0 : (i 0).val = 5000 * t.val + p.val) (h1 : (i 1).val = q.val) :
    (iblk0 V c 0 t : Vec Ideal S5000x128 .f32) (ix2 p q) = (V c main_arg0 : S50000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = (i 0).val; rw [e0, h0]; omega
  | ⟨1, _⟩ => show win0_0.index t 1 * 128 + 1 * q.val = (i 1).val; rw [e1, h1]; omega

/-- The factor window's block at point `t`, entry (p, 0): the column's entry 5000·t + p. -/
theorem iblk0_1_apply (c : Dev nD) (t : Fin cfg0.N) (p : Fin 5000) (i : S50000x1.Idx)
    (h0 : (i 0).val = 5000 * t.val + p.val) :
    (iblk0 V c 1 t : Vec Ideal S5000x1 .f32) (ix2 p 0) = (V c main_v17 : S50000x1.Idx → EReal) i := by
  obtain ⟨-, -, e0, e1, -⟩ := idx_facts0 t
  unfold iblk0
  rw [View.read_apply]
  show V c main_v17 _ = V c main_v17 _
  congr 1
  funext a
  apply Fin.ext
  have hi1 : (i 1).val < 1 := (i 1).isLt
  match a with
  | ⟨0, _⟩ => show win0_1.index t 0 * 5000 + 1 * p.val = (i 0).val; rw [e0, h0]; omega
  | ⟨1, _⟩ => show win0_1.index t 1 * 1 + 1 * 0 = (i 1).val; rw [e1]; omega

/-- A block whose entries are rows 5000·t … of the feature array `A`, scaled by a block whose entries are the same rows
    of the column `N`, is at every entry the row-scaled array at the matching entry. -/
theorem scale_block (x : Vec Ideal S5000x128 .f32) (s : Vec Ideal S5000x1 .f32) (A : FVec Ideal S50000x128 .f32)
    (N : FVec Ideal S50000x1 .f32) (tv : Nat) (j : S5000x128.Idx) (i : S50000x128.Idx)
    (hx : ∀ (p : Fin 5000) (q : Fin 128) (i' : S50000x128.Idx), (i' 0).val = 5000 * tv + p.val → (i' 1).val = q.val → x (ix2 p q) = A i')
    (hs : ∀ (p : Fin 5000) (i' : S50000x1.Idx), (i' 0).val = 5000 * tv + p.val → s (ix2 p 0) = N i')
    (h0 : (i 0).val = 5000 * tv + (j 0).val) (h1 : (i 1).val = (j 1).val) :
    k0_pay1 x s j = Cert.Gcn.rowScale A N i := by
  obtain ⟨p, q, rfl⟩ : ∃ (p : Fin 5000) (q : Fin 128), j = ix2 p q := ⟨j 0, j 1, eq_ix2 j⟩
  rw [Pay.pay_scale_apply, hx p q i h0 h1]
  unfold Cert.Gcn.rowScale
  exact congrArg (A i * ·) (hs p _ h0)

/-- What point `t` writes back is block `t` of the row-scaled feature array. -/
theorem flushed0_eq (c : Dev nD) (t : Fin cfg0.N) :
    (dat0 V c).flushed 2 t
      = ((cfg0.win 2).blk t).view.read (Elt Ideal) (Cert.Gcn.rowScale (V c main_arg0) (V c main_v17)) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  obtain ⟨-, -, -, -, e0, e1⟩ := idx_facts0 t
  funext j
  show k0_pay1 (iblk0 V c 0 t) (iblk0 V c 1 t) j
    = Cert.Gcn.rowScale (V c main_arg0) (V c main_v17) (((cfg0.win 2).blk t).view.emb j)
  have hr0 : ((((cfg0.win 2).blk t).view.emb j : S50000x128.Idx) 0).val = 5000 * t.val + (j 0).val := by
    show win0_2.index t 0 * 5000 + 1 * (j 0).val = _; rw [e0]; omega
  have hr1 : ((((cfg0.win 2).blk t).view.emb j : S50000x128.Idx) 1).val = (j 1).val := by
    show win0_2.index t 1 * 128 + 1 * (j 1).val = _; rw [e1]; omega
  exact scale_block (iblk0 V c 0 t) (iblk0 V c 1 t) (V c main_arg0) (V c main_v17) t.val j _
    (fun p q i' => iblk0_0_apply V c t p q i') (fun p i' => iblk0_1_apply V c t p i') hr0 hr1

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v19).slice (win0_2.rect t)).set ↔ _
  rw [View.set_slice_whole, Rect.mem_set_unit]
  exact Iff.rfl

/-- Row `r` lies in the block of point `r / 5000`: the ten blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, e0, e1⟩ := idx_facts0 t
  refine ⟨t, flush0_2 t, ?_⟩
  rw [mem_blk0]
  have ht : t.val = (i 0).val / 5000 := rfl
  intro a
  match a with
  | ⟨0, _⟩ => show win0_2.index t 0 * 5000 ≤ (i 0).val ∧ (i 0).val < win0_2.index t 0 * 5000 + 5000; rw [e0, ht]; omega
  | ⟨1, _⟩ => show win0_2.index t 1 * 128 ≤ (i 1).val ∧ (i 1).val < win0_2.index t 1 * 128 + 128; rw [e1]; omega

/-- The scaling kernel's result array after its region: the feature array with row `r` times the factor of row `r`. -/
theorem final0 (c : Dev nD) :
    (dat0 V c).arrAt 2 cfg0.N = Cert.Gcn.rowScale (V c main_arg0) (V c main_v17) :=
  (dat0 V c).arrAt_eq_of_cover 2 (Cert.Gcn.rowScale (V c main_arg0) (V c main_v17)) (fun t _ => flushed0_eq V c t) (cover0)

end Cert.KernelIdeal.Blocks

end
-- ==== Proof.Blocks1.lean ====
/-
  The first layer kernel's second result array, whole: ten blocks of 5000 rows, block `t` written by grid point `t`
  from rows 5000·t … 5000·t + 4999 of the aggregate and of the two columns of degree factors, and from the whole weight
  matrix and bias row. Every entry is the layer's value at that entry times the out-degree factor of its row, whatever
  the contents `V` the region is entered with.
-/
import proofs.«124276_j43765716746406_1_alg».proof.Proof.Gen.KernelIdeal.Frame
import proofs.«124276_j43765716746406_1_alg».proof.Proof.Payload
import proofs.«124276_j43765716746406_1_alg».proof.Proof.Spec
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row windows move with the grid point and stay at column block 0; the weights and the bias are one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = t.val ∧ win1_6.index t (1 : Fin 2) = 0 :=
  (by decide +kernel : ∀ t : Fin grid1.N, _)

/-- The aggregate's block at point `t`, entry (p, q): the array's entry (5000·t + p, q). -/
theorem iblk_0_apply (c : Dev nD) (t : Fin cfg1.N) (p : Fin 5000) (q : Fin 128) (i : S50000x128.Idx)
    (h0 : (i 0).val = 5000 * t.val + p.val) (h1 : (i 1).val = q.val) :
    (iblk1 V c 0 t : Vec Ideal S5000x128 .f32) (ix2 p q) = (V c main_v29 : S50000x128.Idx → EReal) i := by
  obtain ⟨e0, e1, -⟩ := idx_facts t
  unfold iblk1
  rw [View.read_apply]
  show V c main_v29 _ = V c main_v29 _
  congr 1
  funext a
  apply Fin.ext
  match a with
  | ⟨0, _⟩ => show win1_0.index t 0 * 5000 + 1 * p.val = (i 0).val; rw [e0, h0]; omega
  | ⟨1, _⟩ => show win1_0.index t 1 * 128 + 1 * q.val = (i 1).val; rw [e1, h1]; omega

/-- The in-degree column's block at point `t`, entry (p, 0): the column's entry 5000·t + p. -/
theorem iblk_1_apply (c : Dev nD) (t : Fin cfg1.N) (p : Fin 5000) (i : S50000x1.Idx)
    (h0 : (i 0).val = 5000 * t.val + p.val) :
    (iblk1 V c 1 t : Vec Ideal S5000x1 .f32) (ix2 p 0) = (V c main_v18 : S50000x1.Idx → EReal) i := by
  obtain ⟨-, -, e0, e1, -⟩ := idx_facts t
  unfold iblk1
  rw [View.read_apply]
  show V c main_v18 _ = V c main_v18 _
  congr 1
  funext a
  apply Fin.ext
  have hi1 : (i 1).val < 1 := (i 1).isLt
  match a with
  | ⟨0, _⟩ => show win1_1.index t 0 * 5000 + 1 * p.val = (i 0).val; rw [e0, h0]; omega
  | ⟨1, _⟩ => show win1_1.index t 1 * 1 + 1 * 0 = (i 1).val; rw [e1]; omega

/-- The out-degree column's block at point `t`, entry (p, 0): the column's entry 5000·t + p. -/
theorem iblk_2_apply (c : Dev nD) (t : Fin cfg1.N) (p : Fin 5000) (i : S50000x1.Idx)
    (h0 : (i 0).val = 5000 * t.val + p.val) :
    (iblk1 V c 2 t : Vec Ideal S5000x1 .f32) (ix2 p 0) = (V c main_v17 : S50000x1.Idx → EReal) i := by
  obtain ⟨-, -, -, -, e0, e1, -⟩ := idx_facts t
  unfold iblk1
  rw [View.read_apply]
  show V c main_v17 _ = V c main_v17 _
  congr 1
  funext a
  apply Fin.ext
  have hi1 : (i 1).val < 1 := (i 1).isLt
  match a with
  | ⟨0, _⟩ => show win1_2.index t 0 * 5000 + 1 * p.val = (i 0).val; rw [e0, h0]; omega
  | ⟨1, _⟩ => show win1_2.index t 1 * 1 + 1 * 0 = (i 1).val; rw [e1]; omega

/-- The weights' one block is the weight matrix. -/
theorem iblk_3_apply (c : Dev nD) (t : Fin cfg1.N) (k : Fin 128) (q : Fin 128) (i : S128x128.Idx)
    (h0 : (i 0).val = k.val) (h1 : (i 1).val = q.val) :
    (iblk1 V c 3 t : Vec Ideal S128x128 .f32) (ix2 k q) = (V c main_v31 : S128x128.Idx → EReal) i := by
  obtain ⟨-, -, -, -, -, -, e0, e1, -⟩ := idx_facts t
  unfold iblk1
  rw [View.read_apply]
  show V c main_v31 _ = V c main_v31 _
  congr 1
  funext a
  apply Fin.ext
  match a with
  | ⟨0, _⟩ => show win1_3.index t 0 * 128 + 1 * k.val = (i 0).val; rw [e0, h0]; omega
  | ⟨1, _⟩ => show win1_3.index t 1 * 128 + 1 * q.val = (i 1).val; rw [e1, h1]; omega

/-- The bias' one block is the bias row. -/
theorem iblk_4_apply (c : Dev nD) (t : Fin cfg1.N) (q : Fin 128) (i : S1x128.Idx) (h1 : (i 1).val = q.val) :
    (iblk1 V c 4 t : Vec Ideal S1x128 .f32) (ix2 0 q) = (V c main_v34 : S1x128.Idx → EReal) i := by
  obtain ⟨-, -, -, -, -, -, -, -, e0, e1, -⟩ := idx_facts t
  unfold iblk1
  rw [View.read_apply]
  show V c main_v34 _ = V c main_v34 _
  congr 1
  funext a
  apply Fin.ext
  have hi0 : (i 0).val < 1 := (i 0).isLt
  match a with
  | ⟨0, _⟩ => show win1_4.index t 0 * 1 + 1 * 0 = (i 0).val; rw [e0]; omega
  | ⟨1, _⟩ => show win1_4.index t 1 * 128 + 1 * q.val = (i 1).val; rw [e1, h1]; omega

/-- Blocks whose entries are rows 5000·t … of the aggregate `A` and of the columns, with the whole weights and bias:
    the body's result at an entry is the specification's value at the matching entry of the array. -/
theorem body_block (x : Vec Ideal S5000x128 .f32) (n : Vec Ideal S5000x1 .f32) (w : Vec Ideal S128x128 .f32)
    (b : Vec Ideal S1x128 .f32) (s : Vec Ideal S5000x1 .f32)
    (A : FVec Ideal S50000x128 .f32) (Nn : FVec Ideal S50000x1 .f32) (Wt : FVec Ideal S128x128 .f32)
    (Bv : FVec Ideal S1x128 .f32) (Ss : FVec Ideal S50000x1 .f32) (tv : Nat) (j : S5000x128.Idx) (i : S50000x128.Idx)
    (hx : ∀ (p : Fin 5000) (q : Fin 128) (i' : S50000x128.Idx), (i' 0).val = 5000 * tv + p.val → (i' 1).val = q.val → x (ix2 p q) = A i')
    (hn : ∀ (p : Fin 5000) (i' : S50000x1.Idx), (i' 0).val = 5000 * tv + p.val → n (ix2 p 0) = Nn i')
    (hw : ∀ (k q : Fin 128) (i' : S128x128.Idx), (i' 0).val = k.val → (i' 1).val = q.val → w (ix2 k q) = Wt i')
    (hb : ∀ (q : Fin 128) (i' : S1x128.Idx), (i' 1).val = q.val → b (ix2 0 q) = Bv i')
    (hs : ∀ (p : Fin 5000) (i' : S50000x1.Idx), (i' 0).val = 5000 * tv + p.val → s (ix2 p 0) = Ss i')
    (h0 : (i 0).val = 5000 * tv + (j 0).val) (h1 : (i 1).val = (j 1).val) :
    k1_pay2 x n w b s j = Cert.Gcn.rowScale (Cert.Gcn.layer A Nn Wt Bv) Ss i := by
  obtain ⟨p, q, rfl⟩ : ∃ (p : Fin 5000) (q : Fin 128), j = ix2 p q := ⟨j 0, j 1, eq_ix2 j⟩
  have e_s : s (ix2 p 0) = Ss (ix2 (n0 := 50000) (n1 := 1) (i 0) 0) := hs p _ h0
  have e_b : b (ix2 0 q) = Bv (ix2 (n0 := 1) (n1 := 128) 0 (i 1)) := hb q _ h1
  have e_n : n (ix2 p 0) = Nn (ix2 (n0 := 50000) (n1 := 1) (i 0) 0) := hn p _ h0
  have e_sum : ∀ k : Fin 128, (x (ix2 p k) * n (ix2 p 0)) * w (ix2 k q)
      = (A (ix2 (n0 := 50000) (n1 := 128) (i 0) k) * Nn (ix2 (n0 := 50000) (n1 := 1) (i 0) 0)) * Wt (ix2 (n0 := 128) (n1 := 128) k (i 1)) := fun k => by
    rw [hx p k (ix2 (n0 := 50000) (n1 := 128) (i 0) k) h0 rfl, e_n, hw k q (ix2 (n0 := 128) (n1 := 128) k (i 1)) rfl h1]
  rw [Pay.pay_layer_scaled_apply, e_s, e_b, Finset.sum_congr rfl fun k _ => e_sum k]
  rfl

/-- What point `t` writes back is block `t` of the specification's array. -/
theorem flushed_eq (c : Dev nD) (t : Fin cfg1.N) :
    (dat1 V c).flushed 6 t
      = ((cfg1.win 6).blk t).view.read (Elt Ideal) (Cert.Gcn.rowScale (Cert.Gcn.layer (V c main_v29) (V c main_v18) (V c main_v31) (V c main_v34)) (V c main_v17)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz, View.ld_unit_zero (S := S1x128) hz]
  obtain ⟨-, -, -, -, -, -, -, -, -, -, e0, e1⟩ := idx_facts t
  funext j
  show k1_pay2 (iblk1 V c 0 t) (iblk1 V c 1 t) (iblk1 V c 3 t) (iblk1 V c 4 t) (iblk1 V c 2 t) j
    = (Cert.Gcn.rowScale (Cert.Gcn.layer (V c main_v29) (V c main_v18) (V c main_v31) (V c main_v34)) (V c main_v17)) (((cfg1.win 6).blk t).view.emb j)
  have hr0 : ((((cfg1.win 6).blk t).view.emb j : S50000x128.Idx) 0).val = 5000 * t.val + (j 0).val := by
    show win1_6.index t 0 * 5000 + 1 * (j 0).val = _; rw [e0]; omega
  have hr1 : ((((cfg1.win 6).blk t).view.emb j : S50000x128.Idx) 1).val = (j 1).val := by
    show win1_6.index t 1 * 128 + 1 * (j 1).val = _; rw [e1]; omega
  exact body_block (iblk1 V c 0 t) (iblk1 V c 1 t) (iblk1 V c 3 t) (iblk1 V c 4 t) (iblk1 V c 2 t)
    (V c main_v29) (V c main_v18) (V c main_v31) (V c main_v34) (V c main_v17) t.val j _
    (fun p q i' => iblk_0_apply V c t p q i') (fun p i' => iblk_1_apply V c t p i')
    (fun k q i' => iblk_3_apply V c t k q i') (fun q i' => iblk_4_apply V c t q i')
    (fun p i' => iblk_2_apply V c t p i') hr0 hr1

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v35_1).slice (win1_6.rect t)).set ↔ _
  rw [View.set_slice_whole, Rect.mem_set_unit]
  exact Iff.rfl

/-- Row `r` lies in the block of point `r / 5000`: the ten blocks cover the array. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, e0, e1⟩ := idx_facts t
  refine ⟨t, flush1_6 t, ?_⟩
  rw [mem_blk]
  have ht : t.val = (i 0).val / 5000 := rfl
  intro a
  match a with
  | ⟨0, _⟩ => show win1_6.index t 0 * 5000 ≤ (i 0).val ∧ (i 0).val < win1_6.index t 0 * 5000 + 5000; rw [e0, ht]; omega
  | ⟨1, _⟩ => show win1_6.index t 1 * 128 ≤ (i 1).val ∧ (i 1).val < win1_6.index t 1 * 128 + 128; rw [e1]; omega

/-- The result array after the region, whole. -/
theorem final (c : Dev nD) :
    (dat1 V c).arrAt 6 cfg1.N = Cert.Gcn.rowScale (Cert.Gcn.layer (V c main_v29) (V c main_v18) (V c main_v31) (V c main_v34)) (V c main_v17) :=
  (dat1 V c).arrAt_eq_of_cover 6 (Cert.Gcn.rowScale (Cert.Gcn.layer (V c main_v29) (V c main_v18) (V c main_v31) (V c main_v34)) (V c main_v17)) (fun t _ => flushed_eq V c t) cover

end Cert.KernelIdeal.Blocks1

end
-- ==== Proof.Blocks2.lean ====
/-
  The second layer kernel's second result array, whole: ten blocks of 5000 rows, block `t` written by grid point `t`
  from rows 5000·t … 5000·t + 4999 of the aggregate and of the two columns of degree factors, and from the whole weight
  matrix and bias row. Every entry is the layer's value at that entry times the out-degree factor of its row, whatever
  the contents `V` the region is entered with.
-/
import proofs.«124276_j43765716746406_1_alg».proof.Proof.Gen.KernelIdeal.Frame
import proofs.«124276_j43765716746406_1_alg».proof.Proof.Payload
import proofs.«124276_j43765716746406_1_alg».proof.Proof.Spec
import Idealize.ShloMosaic.Lib.Pipeline.Value

set_option maxRecDepth 16384

noncomputable section

namespace Cert.KernelIdeal.Blocks2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row windows move with the grid point and stay at column block 0; the weights and the bias are one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = t.val ∧ win2_6.index t (1 : Fin 2) = 0 :=
  (by decide +kernel : ∀ t : Fin grid2.N, _)

/-- The aggregate's block at point `t`, entry (p, q): the array's entry (5000·t + p, q). -/
theorem iblk_0_apply (c : Dev nD) (t : Fin cfg2.N) (p : Fin 5000) (q : Fin 128) (i : S50000x128.Idx)
    (h0 : (i 0).val = 5000 * t.val + p.val) (h1 : (i 1).val = q.val) :
    (iblk2 V c 0 t : Vec Ideal S5000x128 .f32) (ix2 p q) = (V c main_v45 : S50000x128.Idx → EReal) i := by
  obtain ⟨e0, e1, -⟩ := idx_facts t
  unfold iblk2
  rw [View.read_apply]
  show V c main_v45 _ = V c main_v45 _
  congr 1
  funext a
  apply Fin.ext
  match a with
  | ⟨0, _⟩ => show win2_0.index t 0 * 5000 + 1 * p.val = (i 0).val; rw [e0, h0]; omega
  | ⟨1, _⟩ => show win2_0.index t 1 * 128 + 1 * q.val = (i 1).val; rw [e1, h1]; omega

/-- The in-degree column's block at point `t`, entry (p, 0): the column's entry 5000·t + p. -/
theorem iblk_1_apply (c : Dev nD) (t : Fin cfg2.N) (p : Fin 5000) (i : S50000x1.Idx)
    (h0 : (i 0).val = 5000 * t.val + p.val) :
    (iblk2 V c 1 t : Vec Ideal S5000x1 .f32) (ix2 p 0) = (V c main_v18 : S50000x1.Idx → EReal) i := by
  obtain ⟨-, -, e0, e1, -⟩ := idx_facts t
  unfold iblk2
  rw [View.read_apply]
  show V c main_v18 _ = V c main_v18 _
  congr 1
  funext a
  apply Fin.ext
  have hi1 : (i 1).val < 1 := (i 1).isLt
  match a with
  | ⟨0, _⟩ => show win2_1.index t 0 * 5000 + 1 * p.val = (i 0).val; rw [e0, h0]; omega
  | ⟨1, _⟩ => show win2_1.index t 1 * 1 + 1 * 0 = (i 1).val; rw [e1]; omega

/-- The out-degree column's block at point `t`, entry (p, 0): the column's entry 5000·t + p. -/
theorem iblk_2_apply (c : Dev nD) (t : Fin cfg2.N) (p : Fin 5000) (i : S50000x1.Idx)
    (h0 : (i 0).val = 5000 * t.val + p.val) :
    (iblk2 V c 2 t : Vec Ideal S5000x1 .f32) (ix2 p 0) = (V c main_v17 : S50000x1.Idx → EReal) i := by
  obtain ⟨-, -, -, -, e0, e1, -⟩ := idx_facts t
  unfold iblk2
  rw [View.read_apply]
  show V c main_v17 _ = V c main_v17 _
  congr 1
  funext a
  apply Fin.ext
  have hi1 : (i 1).val < 1 := (i 1).isLt
  match a with
  | ⟨0, _⟩ => show win2_2.index t 0 * 5000 + 1 * p.val = (i 0).val; rw [e0, h0]; omega
  | ⟨1, _⟩ => show win2_2.index t 1 * 1 + 1 * 0 = (i 1).val; rw [e1]; omega

/-- The weights' one block is the weight matrix. -/
theorem iblk_3_apply (c : Dev nD) (t : Fin cfg2.N) (k : Fin 128) (q : Fin 128) (i : S128x128.Idx)
    (h0 : (i 0).val = k.val) (h1 : (i 1).val = q.val) :
    (iblk2 V c 3 t : Vec Ideal S128x128 .f32) (ix2 k q) = (V c main_v47 : S128x128.Idx → EReal) i := by
  obtain ⟨-, -, -, -, -, -, e0, e1, -⟩ := idx_facts t
  unfold iblk2
  rw [View.read_apply]
  show V c main_v47 _ = V c main_v47 _
  congr 1
  funext a
  apply Fin.ext
  match a with
  | ⟨0, _⟩ => show win2_3.index t 0 * 128 + 1 * k.val = (i 0).val; rw [e0, h0]; omega
  | ⟨1, _⟩ => show win2_3.index t 1 * 128 + 1 * q.val = (i 1).val; rw [e1, h1]; omega

/-- The bias' one block is the bias row. -/
theorem iblk_4_apply (c : Dev nD) (t : Fin cfg2.N) (q : Fin 128) (i : S1x128.Idx) (h1 : (i 1).val = q.val) :
    (iblk2 V c 4 t : Vec Ideal S1x128 .f32) (ix2 0 q) = (V c main_v50 : S1x128.Idx → EReal) i := by
  obtain ⟨-, -, -, -, -, -, -, -, e0, e1, -⟩ := idx_facts t
  unfold iblk2
  rw [View.read_apply]
  show V c main_v50 _ = V c main_v50 _
  congr 1
  funext a
  apply Fin.ext
  have hi0 : (i 0).val < 1 := (i 0).isLt
  match a with
  | ⟨0, _⟩ => show win2_4.index t 0 * 1 + 1 * 0 = (i 0).val; rw [e0]; omega
  | ⟨1, _⟩ => show win2_4.index t 1 * 128 + 1 * q.val = (i 1).val; rw [e1, h1]; omega

/-- Blocks whose entries are rows 5000·t … of the aggregate `A` and of the columns, with the whole weights and bias:
    the body's result at an entry is the specification's value at the matching entry of the array. -/
theorem body_block (x : Vec Ideal S5000x128 .f32) (n : Vec Ideal S5000x1 .f32) (w : Vec Ideal S128x128 .f32)
    (b : Vec Ideal S1x128 .f32) (s : Vec Ideal S5000x1 .f32)
    (A : FVec Ideal S50000x128 .f32) (Nn : FVec Ideal S50000x1 .f32) (Wt : FVec Ideal S128x128 .f32)
    (Bv : FVec Ideal S1x128 .f32) (Ss : FVec Ideal S50000x1 .f32) (tv : Nat) (j : S5000x128.Idx) (i : S50000x128.Idx)
    (hx : ∀ (p : Fin 5000) (q : Fin 128) (i' : S50000x128.Idx), (i' 0).val = 5000 * tv + p.val → (i' 1).val = q.val → x (ix2 p q) = A i')
    (hn : ∀ (p : Fin 5000) (i' : S50000x1.Idx), (i' 0).val = 5000 * tv + p.val → n (ix2 p 0) = Nn i')
    (hw : ∀ (k q : Fin 128) (i' : S128x128.Idx), (i' 0).val = k.val → (i' 1).val = q.val → w (ix2 k q) = Wt i')
    (hb : ∀ (q : Fin 128) (i' : S1x128.Idx), (i' 1).val = q.val → b (ix2 0 q) = Bv i')
    (hs : ∀ (p : Fin 5000) (i' : S50000x1.Idx), (i' 0).val = 5000 * tv + p.val → s (ix2 p 0) = Ss i')
    (h0 : (i 0).val = 5000 * tv + (j 0).val) (h1 : (i 1).val = (j 1).val) :
    k2_pay2 x n w b s j = Cert.Gcn.rowScale (Cert.Gcn.layer A Nn Wt Bv) Ss i := by
  obtain ⟨p, q, rfl⟩ : ∃ (p : Fin 5000) (q : Fin 128), j = ix2 p q := ⟨j 0, j 1, eq_ix2 j⟩
  have e_s : s (ix2 p 0) = Ss (ix2 (n0 := 50000) (n1 := 1) (i 0) 0) := hs p _ h0
  have e_b : b (ix2 0 q) = Bv (ix2 (n0 := 1) (n1 := 128) 0 (i 1)) := hb q _ h1
  have e_n : n (ix2 p 0) = Nn (ix2 (n0 := 50000) (n1 := 1) (i 0) 0) := hn p _ h0
  have e_sum : ∀ k : Fin 128, (x (ix2 p k) * n (ix2 p 0)) * w (ix2 k q)
      = (A (ix2 (n0 := 50000) (n1 := 128) (i 0) k) * Nn (ix2 (n0 := 50000) (n1 := 1) (i 0) 0)) * Wt (ix2 (n0 := 128) (n1 := 128) k (i 1)) := fun k => by
    rw [hx p k (ix2 (n0 := 50000) (n1 := 128) (i 0) k) h0 rfl, e_n, hw k q (ix2 (n0 := 128) (n1 := 128) k (i 1)) rfl h1]
  rw [Pay.k2_pay2_eq, Pay.pay_layer_scaled_apply, e_s, e_b, Finset.sum_congr rfl fun k _ => e_sum k]
  rfl

/-- What point `t` writes back is block `t` of the specification's array. -/
theorem flushed_eq (c : Dev nD) (t : Fin cfg2.N) :
    (dat2 V c).flushed 6 t
      = ((cfg2.win 6).blk t).view.read (Elt Ideal) (Cert.Gcn.rowScale (Cert.Gcn.layer (V c main_v45) (V c main_v18) (V c main_v47) (V c main_v50)) (V c main_v17)) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x128) hz, View.ld_unit_zero (S := S1x128) hz]
  obtain ⟨-, -, -, -, -, -, -, -, -, -, e0, e1⟩ := idx_facts t
  funext j
  show k2_pay2 (iblk2 V c 0 t) (iblk2 V c 1 t) (iblk2 V c 3 t) (iblk2 V c 4 t) (iblk2 V c 2 t) j
    = (Cert.Gcn.rowScale (Cert.Gcn.layer (V c main_v45) (V c main_v18) (V c main_v47) (V c main_v50)) (V c main_v17)) (((cfg2.win 6).blk t).view.emb j)
  have hr0 : ((((cfg2.win 6).blk t).view.emb j : S50000x128.Idx) 0).val = 5000 * t.val + (j 0).val := by
    show win2_6.index t 0 * 5000 + 1 * (j 0).val = _; rw [e0]; omega
  have hr1 : ((((cfg2.win 6).blk t).view.emb j : S50000x128.Idx) 1).val = (j 1).val := by
    show win2_6.index t 1 * 128 + 1 * (j 1).val = _; rw [e1]; omega
  exact body_block (iblk2 V c 0 t) (iblk2 V c 1 t) (iblk2 V c 3 t) (iblk2 V c 4 t) (iblk2 V c 2 t)
    (V c main_v45) (V c main_v18) (V c main_v47) (V c main_v50) (V c main_v17) t.val j _
    (fun p q i' => iblk_0_apply V c t p q i') (fun p i' => iblk_1_apply V c t p i')
    (fun k q i' => iblk_3_apply V c t k q i') (fun q i' => iblk_4_apply V c t q i')
    (fun p i' => iblk_2_apply V c t p i') hr0 hr1

/-- An index of the array is in point `t`'s block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v51_1).slice (win2_6.rect t)).set ↔ _
  rw [View.set_slice_whole, Rect.mem_set_unit]
  exact Iff.rfl

/-- Row `r` lies in the block of point `r / 5000`: the ten blocks cover the array. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, e0, e1⟩ := idx_facts t
  refine ⟨t, flush2_6 t, ?_⟩
  rw [mem_blk]
  have ht : t.val = (i 0).val / 5000 := rfl
  intro a
  match a with
  | ⟨0, _⟩ => show win2_6.index t 0 * 5000 ≤ (i 0).val ∧ (i 0).val < win2_6.index t 0 * 5000 + 5000; rw [e0, ht]; omega
  | ⟨1, _⟩ => show win2_6.index t 1 * 128 ≤ (i 1).val ∧ (i 1).val < win2_6.index t 1 * 128 + 128; rw [e1]; omega

/-- The result array after the region, whole. -/
theorem final (c : Dev nD) :
    (dat2 V c).arrAt 6 cfg2.N = Cert.Gcn.rowScale (Cert.Gcn.layer (V c main_v45) (V c main_v18) (V c main_v47) (V c main_v50)) (V c main_v17) :=
  (dat2 V c).arrAt_eq_of_cover 6 (Cert.Gcn.rowScale (Cert.Gcn.layer (V c main_v45) (V c main_v18) (V c main_v47) (V c main_v50)) (V c main_v17)) (fun t _ => flushed_eq V c t) cover

end Cert.KernelIdeal.Blocks2

end
-- ==== Proof.Blocks3.lean ====
/-
  The third layer kernel's first result array, whole: ten blocks of 5000 rows, block `t` written by grid point `t` from
  rows 5000·t … 5000·t + 4999 of the aggregate and of the column of in-degree factors, and from the whole weight matrix
  and bias row. Every entry is the layer's value at that entry, whatever the contents `V` the region is entered with.
-/
import proofs.«124276_j43765716746406_1_alg».proof.Proof.Gen.KernelIdeal.Frame
import proofs.«124276_j43765716746406_1_alg».proof.Proof.Payload
import proofs.«124276_j43765716746406_1_alg».proof.Proof.Spec
import Idealize.ShloMosaic.Lib.Pipeline.Value

set_option maxRecDepth 16384

noncomputable section

namespace Cert.KernelIdeal.Blocks3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row windows move with the grid point and stay at column block 0; the weights and the bias are one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The aggregate's block at point `t`, entry (p, q): the array's entry (5000·t + p, q). -/
theorem iblk_0_apply (c : Dev nD) (t : Fin cfg3.N) (p : Fin 5000) (q : Fin 128) (i : S50000x128.Idx)
    (h0 : (i 0).val = 5000 * t.val + p.val) (h1 : (i 1).val = q.val) :
    (iblk3 V c 0 t : Vec Ideal S5000x128 .f32) (ix2 p q) = (V c main_v61 : S50000x128.Idx → EReal) i := by
  obtain ⟨e0, e1, -⟩ := idx_facts t
  unfold iblk3
  rw [View.read_apply]
  show V c main_v61 _ = V c main_v61 _
  congr 1
  funext a
  apply Fin.ext
  match a with
  | ⟨0, _⟩ => show win3_0.index t 0 * 5000 + 1 * p.val = (i 0).val; rw [e0, h0]; omega
  | ⟨1, _⟩ => show win3_0.index t 1 * 128 + 1 * q.val = (i 1).val; rw [e1, h1]; omega

/-- The in-degree column's block at point `t`, entry (p, 0): the column's entry 5000·t + p. -/
theorem iblk_1_apply (c : Dev nD) (t : Fin cfg3.N) (p : Fin 5000) (i : S50000x1.Idx)
    (h0 : (i 0).val = 5000 * t.val + p.val) :
    (iblk3 V c 1 t : Vec Ideal S5000x1 .f32) (ix2 p 0) = (V c main_v18 : S50000x1.Idx → EReal) i := by
  obtain ⟨-, -, e0, e1, -⟩ := idx_facts t
  unfold iblk3
  rw [View.read_apply]
  show V c main_v18 _ = V c main_v18 _
  congr 1
  funext a
  apply Fin.ext
  have hi1 : (i 1).val < 1 := (i 1).isLt
  match a with
  | ⟨0, _⟩ => show win3_1.index t 0 * 5000 + 1 * p.val = (i 0).val; rw [e0, h0]; omega
  | ⟨1, _⟩ => show win3_1.index t 1 * 1 + 1 * 0 = (i 1).val; rw [e1]; omega

/-- The out-degree column's block at point `t`, entry (p, 0): the column's entry 5000·t + p. -/
theorem iblk_2_apply (c : Dev nD) (t : Fin cfg3.N) (p : Fin 5000) (i : S50000x1.Idx)
    (h0 : (i 0).val = 5000 * t.val + p.val) :
    (iblk3 V c 2 t : Vec Ideal S5000x1 .f32) (ix2 p 0) = (V c main_v17 : S50000x1.Idx → EReal) i := by
  obtain ⟨-, -, -, -, e0, e1, -⟩ := idx_facts t
  unfold iblk3
  rw [View.read_apply]
  show V c main_v17 _ = V c main_v17 _
  congr 1
  funext a
  apply Fin.ext
  have hi1 : (i 1).val < 1 := (i 1).isLt
  match a with
  | ⟨0, _⟩ => show win3_2.index t 0 * 5000 + 1 * p.val = (i 0).val; rw [e0, h0]; omega
  | ⟨1, _⟩ => show win3_2.index t 1 * 1 + 1 * 0 = (i 1).val; rw [e1]; omega

/-- The weights' one block is the weight matrix. -/
theorem iblk_3_apply (c : Dev nD) (t : Fin cfg3.N) (k : Fin 128) (q : Fin 128) (i : S128x128.Idx)
    (h0 : (i 0).val = k.val) (h1 : (i 1).val = q.val) :
    (iblk3 V c 3 t : Vec Ideal S128x128 .f32) (ix2 k q) = (V c main_v63 : S128x128.Idx → EReal) i := by
  obtain ⟨-, -, -, -, -, -, e0, e1, -⟩ := idx_facts t
  unfold iblk3
  rw [View.read_apply]
  show V c main_v63 _ = V c main_v63 _
  congr 1
  funext a
  apply Fin.ext
  match a with
  | ⟨0, _⟩ => show win3_3.index t 0 * 128 + 1 * k.val = (i 0).val; rw [e0, h0]; omega
  | ⟨1, _⟩ => show win3_3.index t 1 * 128 + 1 * q.val = (i 1).val; rw [e1, h1]; omega

/-- The bias' one block is the bias row. -/
theorem iblk_4_apply (c : Dev nD) (t : Fin cfg3.N) (q : Fin 128) (i : S1x128.Idx) (h1 : (i 1).val = q.val) :
    (iblk3 V c 4 t : Vec Ideal S1x128 .f32) (ix2 0 q) = (V c main_v66 : S1x128.Idx → EReal) i := by
  obtain ⟨-, -, -, -, -, -, -, -, e0, e1, -⟩ := idx_facts t
  unfold iblk3
  rw [View.read_apply]
  show V c main_v66 _ = V c main_v66 _
  congr 1
  funext a
  apply Fin.ext
  have hi0 : (i 0).val < 1 := (i 0).isLt
  match a with
  | ⟨0, _⟩ => show win3_4.index t 0 * 1 + 1 * 0 = (i 0).val; rw [e0]; omega
  | ⟨1, _⟩ => show win3_4.index t 1 * 128 + 1 * q.val = (i 1).val; rw [e1, h1]; omega

/-- Blocks whose entries are rows 5000·t … of the aggregate `A` and of the columns, with the whole weights and bias:
    the body's result at an entry is the specification's value at the matching entry of the array. -/
theorem body_block (x : Vec Ideal S5000x128 .f32) (n : Vec Ideal S5000x1 .f32) (w : Vec Ideal S128x128 .f32)
    (b : Vec Ideal S1x128 .f32) (s : Vec Ideal S5000x1 .f32)
    (A : FVec Ideal S50000x128 .f32) (Nn : FVec Ideal S50000x1 .f32) (Wt : FVec Ideal S128x128 .f32)
    (Bv : FVec Ideal S1x128 .f32) (Ss : FVec Ideal S50000x1 .f32) (tv : Nat) (j : S5000x128.Idx) (i : S50000x128.Idx)
    (hx : ∀ (p : Fin 5000) (q : Fin 128) (i' : S50000x128.Idx), (i' 0).val = 5000 * tv + p.val → (i' 1).val = q.val → x (ix2 p q) = A i')
    (hn : ∀ (p : Fin 5000) (i' : S50000x1.Idx), (i' 0).val = 5000 * tv + p.val → n (ix2 p 0) = Nn i')
    (hw : ∀ (k q : Fin 128) (i' : S128x128.Idx), (i' 0).val = k.val → (i' 1).val = q.val → w (ix2 k q) = Wt i')
    (hb : ∀ (q : Fin 128) (i' : S1x128.Idx), (i' 1).val = q.val → b (ix2 0 q) = Bv i')
    (hs : ∀ (p : Fin 5000) (i' : S50000x1.Idx), (i' 0).val = 5000 * tv + p.val → s (ix2 p 0) = Ss i')
    (h0 : (i 0).val = 5000 * tv + (j 0).val) (h1 : (i 1).val = (j 1).val) :
    k3_pay1 x n w b j = Cert.Gcn.layer A Nn Wt Bv i := by
  obtain ⟨p, q, rfl⟩ : ∃ (p : Fin 5000) (q : Fin 128), j = ix2 p q := ⟨j 0, j 1, eq_ix2 j⟩
  have e_s : s (ix2 p 0) = Ss (ix2 (n0 := 50000) (n1 := 1) (i 0) 0) := hs p _ h0
  have e_b : b (ix2 0 q) = Bv (ix2 (n0 := 1) (n1 := 128) 0 (i 1)) := hb q _ h1
  have e_n : n (ix2 p 0) = Nn (ix2 (n0 := 50000) (n1 := 1) (i 0) 0) := hn p _ h0
  have e_sum : ∀ k : Fin 128, (x (ix2 p k) * n (ix2 p 0)) * w (ix2 k q)
      = (A (ix2 (n0 := 50000) (n1 := 128) (i 0) k) * Nn (ix2 (n0 := 50000) (n1 := 1) (i 0) 0)) * Wt (ix2 (n0 := 128) (n1 := 128) k (i 1)) := fun k => by
    rw [hx p k (ix2 (n0 := 50000) (n1 := 128) (i 0) k) h0 rfl, e_n, hw k q (ix2 (n0 := 128) (n1 := 128) k (i 1)) rfl h1]
  rw [Pay.k3_pay1_eq, Pay.pay_layer_apply, e_b, Finset.sum_congr rfl fun k _ => e_sum k]
  rfl

/-- What point `t` writes back is block `t` of the specification's array. -/
theorem flushed_eq (c : Dev nD) (t : Fin cfg3.N) :
    (dat3 V c).flushed 5 t
      = ((cfg3.win 5).blk t).view.read (Elt Ideal) (Cert.Gcn.layer (V c main_v61) (V c main_v18) (V c main_v63) (V c main_v66)) := by
  show (cfg3.win 5).cut (grid3.coords t) ((dat3 V c).after 5 t) = _
  rw [after3_5]
  unfold out3_5
  rw [View.canon_unit_zero hz]
  simp only [View.ld_unit_zero (S := S5000x128) hz, View.ld_unit_zero (S := S5000x1) hz, View.ld_unit_zero (S := S128x128) hz, View.ld_unit_zero (S := S1x128) hz]
  obtain ⟨-, -, -, -, -, -, -, -, -, -, e0, e1⟩ := idx_facts t
  funext j
  show k3_pay1 (iblk3 V c 0 t) (iblk3 V c 1 t) (iblk3 V c 3 t) (iblk3 V c 4 t) j
    = (Cert.Gcn.layer (V c main_v61) (V c main_v18) (V c main_v63) (V c main_v66)) (((cfg3.win 5).blk t).view.emb j)
  have hr0 : ((((cfg3.win 5).blk t).view.emb j : S50000x128.Idx) 0).val = 5000 * t.val + (j 0).val := by
    show win3_5.index t 0 * 5000 + 1 * (j 0).val = _; rw [e0]; omega
  have hr1 : ((((cfg3.win 5).blk t).view.emb j : S50000x128.Idx) 1).val = (j 1).val := by
    show win3_5.index t 1 * 128 + 1 * (j 1).val = _; rw [e1]; omega
  exact body_block (iblk3 V c 0 t) (iblk3 V c 1 t) (iblk3 V c 3 t) (iblk3 V c 4 t) (iblk3 V c 2 t)
    (V c main_v61) (V c main_v18) (V c main_v63) (V c main_v66) (V c main_v17) t.val j _
    (fun p q i' => iblk_0_apply V c t p q i') (fun p i' => iblk_1_apply V c t p i')
    (fun k q i' => iblk_3_apply V c t k q i') (fun q i' => iblk_4_apply V c t q i')
    (fun p i' => iblk_2_apply V c t p i') hr0 hr1

/-- An index of the array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v67_0).slice (win3_5.rect t)).set ↔ _
  rw [View.set_slice_whole, Rect.mem_set_unit]
  exact Iff.rfl

/-- Row `r` lies in the block of point `r / 5000`: the ten blocks cover the array. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, -, e0, e1⟩ := idx_facts t
  refine ⟨t, flush3_5 t, ?_⟩
  rw [mem_blk]
  have ht : t.val = (i 0).val / 5000 := rfl
  intro a
  match a with
  | ⟨0, _⟩ => show win3_5.index t 0 * 5000 ≤ (i 0).val ∧ (i 0).val < win3_5.index t 0 * 5000 + 5000; rw [e0, ht]; omega
  | ⟨1, _⟩ => show win3_5.index t 1 * 128 ≤ (i 1).val ∧ (i 1).val < win3_5.index t 1 * 128 + 128; rw [e1]; omega

/-- The result array after the region, whole. -/
theorem final (c : Dev nD) :
    (dat3 V c).arrAt 5 cfg3.N = Cert.Gcn.layer (V c main_v61) (V c main_v18) (V c main_v63) (V c main_v66) :=
  (dat3 V c).arrAt_eq_of_cover 5 (Cert.Gcn.layer (V c main_v61) (V c main_v18) (V c main_v63) (V c main_v66)) (fun t _ => flushed_eq V c t) cover

end Cert.KernelIdeal.Blocks3

end
-- ==== Proof.KChain.lean ====
/-
  The idealized kernel program's result as one function of its four arguments.
  From the edge list come the source and destination node of every edge, and from those the two columns of degree
  factors (one over the square root of the larger of the degree and 1). The features are row-scaled by the out-degree
  column; then, three times: the scaled features are gathered along the edges' sources and summed into the edges'
  destinations, and one dense layer with that layer's weights and bias is applied to the aggregate — followed, after
  the first two layers, by the row scaling for the next gathering. The last layer's unscaled value is the result.
  Each boundary between a stretch of host operations and a kernel region is read in turn: what the region's
  write-backs leave is the specification's function of what the region found; what a host stretch leaves is its
  operations' term; and what nobody writes stays as it was.
-/
import proofs.«124276_j43765716746406_1_alg».proof.Proof.Gen.KernelIdeal.Frame
import proofs.«124276_j43765716746406_1_alg».proof.Proof.Blocks0
import proofs.«124276_j43765716746406_1_alg».proof.Proof.Blocks1
import proofs.«124276_j43765716746406_1_alg».proof.Proof.Blocks2
import proofs.«124276_j43765716746406_1_alg».proof.Proof.Blocks3
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Idealize.ShloMosaic.Pipeline (Dat)

/-! ## The pieces, as functions of the argument arrays -/

/-- The edges' source nodes: row 0 of the edge list. -/
def src (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The edges' destination nodes: row 1 of the edge list. -/
def dst (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The column of degree factors of the nodes counted by `v` (an edge end per edge): a one summed into each edge's
    node, then `1 / √(max(degree, 1))`. -/
def degFactor (v : (⟨S800000, .i32⟩ : BufTy).Contents (Elt Ideal)) : (⟨S50000x1, .f32⟩ : BufTy).Contents (Elt Ideal) :=
  broadcastInDim S50000x1 ![0] bcast_S50000_S50000x1_0
    (Host.rsqrt (maximumf
      (Host.scatterAdd scatter_S50000_S800000x1_S800000_n_0_0_1 (broadcastInDim S50000 ![] bcast_S_S50000 (constant (F := Ideal) S_ .f32 0x00000000#32))
        (broadcastInDim S800000x1 ![0] bcast_S800000_S800000x1_0 v)
        (broadcastInDim S800000 ![] bcast_S_S800000 (constant (F := Ideal) S_ .f32 0x3F800000#32)))
      (broadcastInDim S50000 ![] bcast_S_S50000 (constant (F := Ideal) S_ .f32 0x3F800000#32))))

/-- Gather the rows of `h` at the edges' sources (a negative index counted from the end) and sum them into the
    edges' destinations. -/
def aggregate (e : (⟨S2x800000, .i32⟩ : BufTy).Contents (Elt Ideal)) (h : (⟨S50000x128, .f32⟩ : BufTy).Contents (Elt Ideal)) :
    (⟨S50000x128, .f32⟩ : BufTy).Contents (Elt Ideal) :=
  Host.scatterAdd scatter_S50000x128_S800000x1_S800000x128_1_0_0_1 (broadcastInDim S50000x128 ![] bcast_S_S50000x128 (constant (F := Ideal) S_ .f32 0x00000000#32))
    (broadcastInDim S800000x1 ![0] bcast_S800000_S800000x1_0 (dst e))
    (Host.gather gather_S50000x128_S800000x1_S800000x128_1_0_n_n_0_1_1128 h
      (broadcastInDim S800000x1 ![0] bcast_S800000_S800000x1_0
        (select (cmpi .slt (src e) (broadcastInDim S800000 ![] bcast_S_S800000 (constantI S_ 32 0#32)))
          (addi (src e) (broadcastInDim S800000 ![] bcast_S_S800000 (constantI S_ 32 50000#32))) (src e))))

/-- Layer 0's weights and bias row. -/
def w0 (a : (⟨S3x128x128, .f32⟩ : BufTy).Contents (Elt Ideal)) : (⟨S128x128, .f32⟩ : BufTy).Contents (Elt Ideal) :=
  shapeCast _ (extractStridedSlice S1x128x128 ![0, 0, 0] a slices_S3x128x128_S1x128x128_0_0_0) shapeCasts_S1x128x128_S128x128
def b0 (a : (⟨S3x128, .f32⟩ : BufTy).Contents (Elt Ideal)) : (⟨S1x128, .f32⟩ : BufTy).Contents (Elt Ideal) :=
  shapeCast _ (shapeCast _ (extractStridedSlice S1x128 ![0, 0] a slices_S3x128_S1x128_0_0) shapeCasts_S1x128_S128) shapeCasts_S128_S1x128
/-- Layer 1's. -/
def w1 (a : (⟨S3x128x128, .f32⟩ : BufTy).Contents (Elt Ideal)) : (⟨S128x128, .f32⟩ : BufTy).Contents (Elt Ideal) :=
  shapeCast _ (extractStridedSlice S1x128x128 ![1, 0, 0] a slices_S3x128x128_S1x128x128_1_0_0) shapeCasts_S1x128x128_S128x128
def b1 (a : (⟨S3x128, .f32⟩ : BufTy).Contents (Elt Ideal)) : (⟨S1x128, .f32⟩ : BufTy).Contents (Elt Ideal) :=
  shapeCast _ (shapeCast _ (extractStridedSlice S1x128 ![1, 0] a slices_S3x128_S1x128_1_0) shapeCasts_S1x128_S128) shapeCasts_S128_S1x128
/-- Layer 2's. -/
def w2 (a : (⟨S3x128x128, .f32⟩ : BufTy).Contents (Elt Ideal)) : (⟨S128x128, .f32⟩ : BufTy).Contents (Elt Ideal) :=
  shapeCast _ (extractStridedSlice S1x128x128 ![2, 0, 0] a slices_S3x128x128_S1x128x128_2_0_0) shapeCasts_S1x128x128_S128x128
def b2 (a : (⟨S3x128, .f32⟩ : BufTy).Contents (Elt Ideal)) : (⟨S1x128, .f32⟩ : BufTy).Contents (Elt Ideal) :=
  shapeCast _ (shapeCast _ (extractStridedSlice S1x128 ![2, 0] a slices_S3x128_S1x128_2_0) shapeCasts_S1x128_S128) shapeCasts_S128_S1x128

/-- The scaled features going into the first gathering. -/
def hs0 (x : (⟨S50000x128, .f32⟩ : BufTy).Contents (Elt Ideal)) (e : (⟨S2x800000, .i32⟩ : BufTy).Contents (Elt Ideal)) :
    (⟨S50000x128, .f32⟩ : BufTy).Contents (Elt Ideal) :=
  Cert.Gcn.rowScale x (degFactor (src e))
/-- After layer 0, scaled for the second gathering. -/
def hs1 (x : (⟨S50000x128, .f32⟩ : BufTy).Contents (Elt Ideal)) (e : (⟨S2x800000, .i32⟩ : BufTy).Contents (Elt Ideal))
    (w : (⟨S3x128x128, .f32⟩ : BufTy).Contents (Elt Ideal)) (b : (⟨S3x128, .f32⟩ : BufTy).Contents (Elt Ideal)) :
    (⟨S50000x128, .f32⟩ : BufTy).Contents (Elt Ideal) :=
  Cert.Gcn.rowScale (Cert.Gcn.layer (aggregate e (hs0 x e)) (degFactor (dst e)) (w0 w) (b0 b)) (degFactor (src e))
/-- After layer 1, scaled for the third gathering. -/
def hs2 (x : (⟨S50000x128, .f32⟩ : BufTy).Contents (Elt Ideal)) (e : (⟨S2x800000, .i32⟩ : BufTy).Contents (Elt Ideal))
    (w : (⟨S3x128x128, .f32⟩ : BufTy).Contents (Elt Ideal)) (b : (⟨S3x128, .f32⟩ : BufTy).Contents (Elt Ideal)) :
    (⟨S50000x128, .f32⟩ : BufTy).Contents (Elt Ideal) :=
  Cert.Gcn.rowScale (Cert.Gcn.layer (aggregate e (hs1 x e w b)) (degFactor (dst e)) (w1 w) (b1 b)) (degFactor (src e))
/-- THE RESULT: layer 2 of the third aggregate. -/
def result (x : (⟨S50000x128, .f32⟩ : BufTy).Contents (Elt Ideal)) (e : (⟨S2x800000, .i32⟩ : BufTy).Contents (Elt Ideal))
    (w : (⟨S3x128x128, .f32⟩ : BufTy).Contents (Elt Ideal)) (b : (⟨S3x128, .f32⟩ : BufTy).Contents (Elt Ideal)) :
    (⟨S50000x128, .f32⟩ : BufTy).Contents (Elt Ideal) :=
  Cert.Gcn.layer (aggregate e (hs2 x e w b)) (degFactor (dst e)) (w2 w) (b2 b)

/-! ## The boundaries' contents, read in turn -/

variable (m : (ℓ : Loc nD τ sig) → Buf (Elt Ideal) ℓ) (ρ : Dev nD → PrngReg)

/-- What no host operation and no region changes between the first region's entry and the return. -/
structure Keeps (c : Dev nD) (W : Valuation τ sig (Elt Ideal)) : Prop where
  v1 : W (Proc.devRef .tc main_v1) = src (m ((c : Thread nD τ).loc main_arg1))
  v3 : W (Proc.devRef .tc main_v3) = dst (m ((c : Thread nD τ).loc main_arg1))
  v17 : W (Proc.devRef .tc main_v17) = degFactor (src (m ((c : Thread nD τ).loc main_arg1)))
  v18 : W (Proc.devRef .tc main_v18) = degFactor (dst (m ((c : Thread nD τ).loc main_arg1)))
  a2 : W (Proc.devRef .tc main_arg2) = m ((c : Thread nD τ).loc main_arg2)
  a3 : W (Proc.devRef .tc main_arg3) = m ((c : Thread nD τ).loc main_arg3)

/-- Closes "this host stretch leaves in that buffer this term": each operation's result at its own buffer is its
    function's value, at another buffer what was there. -/
macro "host_read" : tactic => `(tactic| (after_results_simp <;> first | done | rfl))
/-- Closes "this host stretch leaves that buffer as it found it": every operation's result is another buffer's. -/
macro "host_keep" : tactic => `(tactic| (after_results; first | done | rfl))

set_option maxHeartbeats 4000000 in
/-- After the first stretch of host operations: the edge ends, the two columns of degree factors. -/
theorem keeps1 (c : Dev nD) : Keeps m c (W1 m ρ c) where
  v1 := by show StableHlo.after hostOps0 (W0 m ρ c) (Proc.devRef .tc main_v1) = _; host_read
  v3 := by show StableHlo.after hostOps0 (W0 m ρ c) (Proc.devRef .tc main_v3) = _; host_read
  v17 := by show StableHlo.after hostOps0 (W0 m ρ c) (Proc.devRef .tc main_v17) = _; host_read
  v18 := by show StableHlo.after hostOps0 (W0 m ρ c) (Proc.devRef .tc main_v18) = _; host_read
  a2 := by show StableHlo.after hostOps0 (W0 m ρ c) (Proc.devRef .tc main_arg2) = _; host_read
  a3 := by show StableHlo.after hostOps0 (W0 m ρ c) (Proc.devRef .tc main_arg3) = _; host_read

theorem arg0_1 (c : Dev nD) : W1 m ρ c (Proc.devRef .tc main_arg0) = m ((c : Thread nD τ).loc main_arg0) := by
  show StableHlo.after hostOps0 (W0 m ρ c) (Proc.devRef .tc main_arg0) = _; host_read

/-- The scaling kernel reads the out-degree column and writes none of the kept buffers. -/
theorem keeps2 (c : Dev nD) : Keeps m c (W2 m ρ c) :=
  have k := keeps1 m ρ c
  { v1 := (W2_of_ne m ρ c main_v1 (by decide)).trans k.v1
    v3 := (W2_of_ne m ρ c main_v3 (by decide)).trans k.v3
    v17 := ((W2_arr m ρ c 1).trans (((dat0 (V1 m ρ) c).arrAt_in 1 rfl _).trans (A_eq0 (V1 m ρ) c 1))).trans k.v17
    v18 := (W2_of_ne m ρ c main_v18 (by decide)).trans k.v18
    a2 := (W2_of_ne m ρ c main_arg2 (by decide)).trans k.a2
    a3 := (W2_of_ne m ρ c main_arg3 (by decide)).trans k.a3 }

/-- The scaling kernel's result: the features, each row times its out-degree factor. -/
theorem out2 (c : Dev nD) : W2 m ρ c (Proc.devRef .tc main_v19) = hs0 (m ((c : Thread nD τ).loc main_arg0)) (m ((c : Thread nD τ).loc main_arg1)) := by
  refine (W2_arr m ρ c 2).trans ?_
  rw [Blocks.final0 (V1 m ρ) c]
  show Cert.Gcn.rowScale (W1 m ρ c (Proc.devRef .tc main_arg0)) (W1 m ρ c (Proc.devRef .tc main_v17)) = _
  rw [arg0_1 m ρ c, (keeps1 m ρ c).v17]
  rfl

/-- The second stretch of host operations writes none of them. -/
theorem keeps3 (c : Dev nD) : Keeps m c (W3 m ρ c) :=
  have k := keeps2 m ρ c
  { v1 := (show StableHlo.after hostOps1 (W2 m ρ c) (Proc.devRef .tc main_v1) = W2 m ρ c (Proc.devRef .tc main_v1) by host_keep).trans k.v1
    v3 := (show StableHlo.after hostOps1 (W2 m ρ c) (Proc.devRef .tc main_v3) = W2 m ρ c (Proc.devRef .tc main_v3) by host_keep).trans k.v3
    v17 := (show StableHlo.after hostOps1 (W2 m ρ c) (Proc.devRef .tc main_v17) = W2 m ρ c (Proc.devRef .tc main_v17) by host_keep).trans k.v17
    v18 := (show StableHlo.after hostOps1 (W2 m ρ c) (Proc.devRef .tc main_v18) = W2 m ρ c (Proc.devRef .tc main_v18) by host_keep).trans k.v18
    a2 := (show StableHlo.after hostOps1 (W2 m ρ c) (Proc.devRef .tc main_arg2) = W2 m ρ c (Proc.devRef .tc main_arg2) by host_keep).trans k.a2
    a3 := (show StableHlo.after hostOps1 (W2 m ρ c) (Proc.devRef .tc main_arg3) = W2 m ρ c (Proc.devRef .tc main_arg3) by host_keep).trans k.a3 }

set_option maxHeartbeats 4000000 in
/-- The second stretch of host operations: the aggregate of the scaled features, and layer 0's weights and bias row. -/
theorem agg3 (c : Dev nD) : W3 m ρ c (Proc.devRef .tc main_v29) = aggregate (m ((c : Thread nD τ).loc main_arg1)) (hs0 (m ((c : Thread nD τ).loc main_arg0)) (m ((c : Thread nD τ).loc main_arg1))) := by
  show StableHlo.after hostOps1 (W2 m ρ c) (Proc.devRef .tc main_v29) = _
  after_results_simp
  rw [out2 m ρ c, (keeps2 m ρ c).v1, (keeps2 m ρ c).v3]
  rfl
theorem wt3 (c : Dev nD) : W3 m ρ c (Proc.devRef .tc main_v31) = w0 (m ((c : Thread nD τ).loc main_arg2)) := by
  show StableHlo.after hostOps1 (W2 m ρ c) (Proc.devRef .tc main_v31) = _
  after_results
  rw [(keeps2 m ρ c).a2]
  rfl
theorem bs3 (c : Dev nD) : W3 m ρ c (Proc.devRef .tc main_v34) = b0 (m ((c : Thread nD τ).loc main_arg3)) := by
  show StableHlo.after hostOps1 (W2 m ρ c) (Proc.devRef .tc main_v34) = _
  after_results
  rw [(keeps2 m ρ c).a3]
  rfl

/-- The first layer kernel reads the two columns and writes none of them. -/
theorem keeps4 (c : Dev nD) : Keeps m c (W4 m ρ c) :=
  have k := keeps3 m ρ c
  { v1 := (W4_of_ne m ρ c main_v1 (by decide)).trans k.v1
    v3 := (W4_of_ne m ρ c main_v3 (by decide)).trans k.v3
    v17 := ((W4_arr m ρ c 2).trans (((dat1 (V3 m ρ) c).arrAt_in 2 rfl _).trans (A_eq1 (V3 m ρ) c 2))).trans k.v17
    v18 := ((W4_arr m ρ c 1).trans (((dat1 (V3 m ρ) c).arrAt_in 1 rfl _).trans (A_eq1 (V3 m ρ) c 1))).trans k.v18
    a2 := (W4_of_ne m ρ c main_arg2 (by decide)).trans k.a2
    a3 := (W4_of_ne m ρ c main_arg3 (by decide)).trans k.a3 }

/-- The first layer kernel's second result: the layer's value, scaled for the next gathering. -/
theorem out4 (c : Dev nD) : W4 m ρ c (Proc.devRef .tc main_v35_1) = hs1 (m ((c : Thread nD τ).loc main_arg0)) (m ((c : Thread nD τ).loc main_arg1)) (m ((c : Thread nD τ).loc main_arg2)) (m ((c : Thread nD τ).loc main_arg3)) := by
  refine (W4_arr m ρ c 6).trans ?_
  rw [Blocks1.final (V3 m ρ) c]
  show Cert.Gcn.rowScale (Cert.Gcn.layer (W3 m ρ c (Proc.devRef .tc main_v29)) (W3 m ρ c (Proc.devRef .tc main_v18)) (W3 m ρ c (Proc.devRef .tc main_v31)) (W3 m ρ c (Proc.devRef .tc main_v34))) (W3 m ρ c (Proc.devRef .tc main_v17)) = _
  rw [agg3 m ρ c, wt3 m ρ c, bs3 m ρ c, (keeps3 m ρ c).v18, (keeps3 m ρ c).v17]
  rfl

/-- The third stretch of host operations writes none of them. -/
theorem keeps5 (c : Dev nD) : Keeps m c (W5 m ρ c) :=
  have k := keeps4 m ρ c
  { v1 := (show StableHlo.after hostOps2 (W4 m ρ c) (Proc.devRef .tc main_v1) = W4 m ρ c (Proc.devRef .tc main_v1) by host_keep).trans k.v1
    v3 := (show StableHlo.after hostOps2 (W4 m ρ c) (Proc.devRef .tc main_v3) = W4 m ρ c (Proc.devRef .tc main_v3) by host_keep).trans k.v3
    v17 := (show StableHlo.after hostOps2 (W4 m ρ c) (Proc.devRef .tc main_v17) = W4 m ρ c (Proc.devRef .tc main_v17) by host_keep).trans k.v17
    v18 := (show StableHlo.after hostOps2 (W4 m ρ c) (Proc.devRef .tc main_v18) = W4 m ρ c (Proc.devRef .tc main_v18) by host_keep).trans k.v18
    a2 := (show StableHlo.after hostOps2 (W4 m ρ c) (Proc.devRef .tc main_arg2) = W4 m ρ c (Proc.devRef .tc main_arg2) by host_keep).trans k.a2
    a3 := (show StableHlo.after hostOps2 (W4 m ρ c) (Proc.devRef .tc main_arg3) = W4 m ρ c (Proc.devRef .tc main_arg3) by host_keep).trans k.a3 }

set_option maxHeartbeats 4000000 in
/-- The third stretch of host operations: the aggregate of the scaled features, and layer 1's weights and bias row. -/
theorem agg5 (c : Dev nD) : W5 m ρ c (Proc.devRef .tc main_v45) = aggregate (m ((c : Thread nD τ).loc main_arg1)) (hs1 (m ((c : Thread nD τ).loc main_arg0)) (m ((c : Thread nD τ).loc main_arg1)) (m ((c : Thread nD τ).loc main_arg2)) (m ((c : Thread nD τ).loc main_arg3))) := by
  show StableHlo.after hostOps2 (W4 m ρ c) (Proc.devRef .tc main_v45) = _
  after_results_simp
  rw [out4 m ρ c, (keeps4 m ρ c).v1, (keeps4 m ρ c).v3]
  rfl
theorem wt5 (c : Dev nD) : W5 m ρ c (Proc.devRef .tc main_v47) = w1 (m ((c : Thread nD τ).loc main_arg2)) := by
  show StableHlo.after hostOps2 (W4 m ρ c) (Proc.devRef .tc main_v47) = _
  after_results
  rw [(keeps4 m ρ c).a2]
  rfl
theorem bs5 (c : Dev nD) : W5 m ρ c (Proc.devRef .tc main_v50) = b1 (m ((c : Thread nD τ).loc main_arg3)) := by
  show StableHlo.after hostOps2 (W4 m ρ c) (Proc.devRef .tc main_v50) = _
  after_results
  rw [(keeps4 m ρ c).a3]
  rfl

/-- The second layer kernel reads the two columns and writes none of them. -/
theorem keeps6 (c : Dev nD) : Keeps m c (W6 m ρ c) :=
  have k := keeps5 m ρ c
  { v1 := (W6_of_ne m ρ c main_v1 (by decide)).trans k.v1
    v3 := (W6_of_ne m ρ c main_v3 (by decide)).trans k.v3
    v17 := ((W6_arr m ρ c 2).trans (((dat2 (V5 m ρ) c).arrAt_in 2 rfl _).trans (A_eq2 (V5 m ρ) c 2))).trans k.v17
    v18 := ((W6_arr m ρ c 1).trans (((dat2 (V5 m ρ) c).arrAt_in 1 rfl _).trans (A_eq2 (V5 m ρ) c 1))).trans k.v18
    a2 := (W6_of_ne m ρ c main_arg2 (by decide)).trans k.a2
    a3 := (W6_of_ne m ρ c main_arg3 (by decide)).trans k.a3 }

/-- The second layer kernel's second result: the layer's value, scaled for the next gathering. -/
theorem out6 (c : Dev nD) : W6 m ρ c (Proc.devRef .tc main_v51_1) = hs2 (m ((c : Thread nD τ).loc main_arg0)) (m ((c : Thread nD τ).loc main_arg1)) (m ((c : Thread nD τ).loc main_arg2)) (m ((c : Thread nD τ).loc main_arg3)) := by
  refine (W6_arr m ρ c 6).trans ?_
  rw [Blocks2.final (V5 m ρ) c]
  show Cert.Gcn.rowScale (Cert.Gcn.layer (W5 m ρ c (Proc.devRef .tc main_v45)) (W5 m ρ c (Proc.devRef .tc main_v18)) (W5 m ρ c (Proc.devRef .tc main_v47)) (W5 m ρ c (Proc.devRef .tc main_v50))) (W5 m ρ c (Proc.devRef .tc main_v17)) = _
  rw [agg5 m ρ c, wt5 m ρ c, bs5 m ρ c, (keeps5 m ρ c).v18, (keeps5 m ρ c).v17]
  rfl

/-- The fourth stretch of host operations writes none of them. -/
theorem keeps7 (c : Dev nD) : Keeps m c (W7 m ρ c) :=
  have k := keeps6 m ρ c
  { v1 := (show StableHlo.after hostOps3 (W6 m ρ c) (Proc.devRef .tc main_v1) = W6 m ρ c (Proc.devRef .tc main_v1) by host_keep).trans k.v1
    v3 := (show StableHlo.after hostOps3 (W6 m ρ c) (Proc.devRef .tc main_v3) = W6 m ρ c (Proc.devRef .tc main_v3) by host_keep).trans k.v3
    v17 := (show StableHlo.after hostOps3 (W6 m ρ c) (Proc.devRef .tc main_v17) = W6 m ρ c (Proc.devRef .tc main_v17) by host_keep).trans k.v17
    v18 := (show StableHlo.after hostOps3 (W6 m ρ c) (Proc.devRef .tc main_v18) = W6 m ρ c (Proc.devRef .tc main_v18) by host_keep).trans k.v18
    a2 := (show StableHlo.after hostOps3 (W6 m ρ c) (Proc.devRef .tc main_arg2) = W6 m ρ c (Proc.devRef .tc main_arg2) by host_keep).trans k.a2
    a3 := (show StableHlo.after hostOps3 (W6 m ρ c) (Proc.devRef .tc main_arg3) = W6 m ρ c (Proc.devRef .tc main_arg3) by host_keep).trans k.a3 }

set_option maxHeartbeats 4000000 in
/-- The fourth stretch of host operations: the aggregate of the scaled features, and layer 2's weights and bias row. -/
theorem agg7 (c : Dev nD) : W7 m ρ c (Proc.devRef .tc main_v61) = aggregate (m ((c : Thread nD τ).loc main_arg1)) (hs2 (m ((c : Thread nD τ).loc main_arg0)) (m ((c : Thread nD τ).loc main_arg1)) (m ((c : Thread nD τ).loc main_arg2)) (m ((c : Thread nD τ).loc main_arg3))) := by
  show StableHlo.after hostOps3 (W6 m ρ c) (Proc.devRef .tc main_v61) = _
  after_results_simp
  rw [out6 m ρ c, (keeps6 m ρ c).v1, (keeps6 m ρ c).v3]
  rfl
theorem wt7 (c : Dev nD) : W7 m ρ c (Proc.devRef .tc main_v63) = w2 (m ((c : Thread nD τ).loc main_arg2)) := by
  show StableHlo.after hostOps3 (W6 m ρ c) (Proc.devRef .tc main_v63) = _
  after_results
  rw [(keeps6 m ρ c).a2]
  rfl
theorem bs7 (c : Dev nD) : W7 m ρ c (Proc.devRef .tc main_v66) = b2 (m ((c : Thread nD τ).loc main_arg3)) := by
  show StableHlo.after hostOps3 (W6 m ρ c) (Proc.devRef .tc main_v66) = _
  after_results
  rw [(keeps6 m ρ c).a3]
  rfl

/-- THE KERNEL PROGRAM'S RESULT ARRAY at the return: the third layer's first result, the specification's `result` of the
    four arguments. -/
theorem out8 (c : Dev nD) : W8 m ρ c (Proc.devRef .tc main_v67_0) = result (m ((c : Thread nD τ).loc main_arg0)) (m ((c : Thread nD τ).loc main_arg1)) (m ((c : Thread nD τ).loc main_arg2)) (m ((c : Thread nD τ).loc main_arg3)) := by
  refine (W8_arr m ρ c 5).trans ?_
  rw [Blocks3.final (V7 m ρ) c]
  show Cert.Gcn.layer (W7 m ρ c (Proc.devRef .tc main_v61)) (W7 m ρ c (Proc.devRef .tc main_v18)) (W7 m ρ c (Proc.devRef .tc main_v63)) (W7 m ρ c (Proc.devRef .tc main_v66)) = _
  rw [agg7 m ρ c, wt7 m ρ c, bs7 m ρ c, (keeps7 m ρ c).v18]
  rfl

end Cert.KernelIdeal.Chain

end
-- ==== Proof.RefLayer.lean ====
/-
  The reference's operations on whole arrays, as the two functions of the specification: a product with a column
  spread over the 128 features is a row scaling; a host matrix product of a row-scaled array with the weights, plus a
  bias vector spread over the rows, is one layer.
-/
import proofs.«124276_j43765716746406_1_alg».proof.Proof.Gen.ReferenceIdeal
import proofs.«124276_j43765716746406_1_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

/-- A vector of 128 entries reshapes to one row of 128. -/
theorem casts_row : S128.ShapeCasts S1x128 := by decide

/-- A column spread over the features, read at an entry: the column's entry of that row. -/
theorem colSpread_apply (n : FVec Ideal S50000x1 .f32) (i : S50000x128.Idx) :
    broadcastInDim S50000x128 ![0, 1] bcast_S50000x1_S50000x128_0_1 n i = n (ix2 (n0 := 50000) (n1 := 1) (i 0) 0) :=
  broadcastInDim_apply _ bcast_S50000x1_S50000x128_0_1 n i (ix2 (n0 := 50000) (n1 := 1) (i 0) 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- The product with a column spread over the features is the row scaling. -/
theorem ref_scale (h : FVec Ideal S50000x128 .f32) (n : FVec Ideal S50000x1 .f32) :
    mulf h (broadcastInDim S50000x128 ![0, 1] bcast_S50000x1_S50000x128_0_1 n) = Cert.Gcn.rowScale h n := by
  funext i
  show h i * _ = h i * _
  rw [colSpread_apply]

/-- The bias vector laid as one row and spread over the rows, read at an entry: the bias of that feature, which is
    also the entry of the vector reshaped to one row. -/
theorem biasSpread_apply (b : FVec Ideal S128 .f32) (i : S50000x128.Idx) :
    broadcastInDim S50000x128 ![0, 1] bcast_S1x128_S50000x128_0_1 (broadcastInDim S1x128 ![1] bcast_S128_S1x128_1 b) i
      = shapeCast S1x128 b casts_row (ix2 (n0 := 1) (n1 := 128) 0 (i 1)) := by
  have hi1 : (i 1).val < 128 := (i 1).isLt
  rw [broadcastInDim_apply _ bcast_S1x128_S50000x128_0_1 _ i (ix2 (n0 := 1) (n1 := 128) 0 (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  rw [broadcastInDim_apply _ bcast_S128_S1x128_1 b (ix2 (n0 := 1) (n1 := 128) 0 (i 1)) (ix1 (n := 128) (i 1)) (fun a => match a with
    | ⟨0, _⟩ => by show (i 1).val = if (128 : Nat) = 1 then 0 else (i 1).val; rw [if_neg (by decide)])]
  refine (shapeCast_apply b casts_row (ix2 (n0 := 1) (n1 := 128) 0 (i 1)) (ix1 (n := 128) (i 1)) ?_).symm
  rewrite [Shape.rowMajor_val_one, Shape.rowMajor_val_two]
  show (i 1).val = 0 * 128 + (i 1).val
  omega

theorem lhs_0 (i : S50000x128.Idx) (r : dot_S50000x128_S128x128_S50000x128_1_0_0_1_n_n.contr.Idx) : (dot_S50000x128_S128x128_S50000x128_1_0_0_1_n_n.lhsIdx i r 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_1 (i : S50000x128.Idx) (r : dot_S50000x128_S128x128_S50000x128_1_0_0_1_n_n.contr.Idx) : (dot_S50000x128_S128x128_S50000x128_1_0_0_1_n_n.lhsIdx i r 1).val = (r ⟨0, by decide⟩).val :=
  dot_S50000x128_S128x128_S50000x128_1_0_0_1_n_n.lhsIdx_val_of_single rfl i r
theorem rhs_0 (i : S50000x128.Idx) (r : dot_S50000x128_S128x128_S50000x128_1_0_0_1_n_n.contr.Idx) : (dot_S50000x128_S128x128_S50000x128_1_0_0_1_n_n.rhsIdx i r 0).val = (r ⟨0, by decide⟩).val :=
  dot_S50000x128_S128x128_S50000x128_1_0_0_1_n_n.rhsIdx_val_of_single rfl i r
theorem rhs_1 (i : S50000x128.Idx) (r : dot_S50000x128_S128x128_S50000x128_1_0_0_1_n_n.contr.Idx) : (dot_S50000x128_S128x128_S50000x128_1_0_0_1_n_n.rhsIdx i r 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host matrix product with the weights at an entry: the sum over the 128 contracted positions. -/
theorem dot_apply (l : FVec Ideal S50000x128 .f32) (w : FVec Ideal S128x128 .f32) (i : S50000x128.Idx) :
    Host.dotGeneral dot_S50000x128_S128x128_S50000x128_1_0_0_1_n_n none l w i
      = ∑ k : Fin 128, l (ix2 (n0 := 50000) (n1 := 128) (i 0) k) * w (ix2 (n0 := 128) (n1 := 128) k (i 1)) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = ix2 (n0 := 50000) (n1 := 128) (i 0) k := funext fun a => Fin.ext (by
    match a with
    | ⟨0, _⟩ => exact lhs_0 _ _
    | ⟨1, _⟩ => exact (lhs_1 _ _).trans hk)
  have er : dot_S50000x128_S128x128_S50000x128_1_0_0_1_n_n.rhsIdx i ((contrEquiv1 dot_S50000x128_S128x128_S50000x128_1_0_0_1_n_n 128 rfl rfl).symm k) = ix2 (n0 := 128) (n1 := 128) k (i 1) := funext fun a => Fin.ext (by
    match a with
    | ⟨0, _⟩ => exact (rhs_0 _ _).trans hk
    | ⟨1, _⟩ => exact rhs_1 _ _)
  rw [el, er]

/-- One layer of the reference, whole: the matrix product of the row-scaled aggregate with the weights, plus the bias. -/
theorem ref_layer (a : FVec Ideal S50000x128 .f32) (n : FVec Ideal S50000x1 .f32) (w : FVec Ideal S128x128 .f32)
    (b : FVec Ideal S128 .f32) :
    addf (Host.dotGeneral dot_S50000x128_S128x128_S50000x128_1_0_0_1_n_n none (mulf a (broadcastInDim S50000x128 ![0, 1] bcast_S50000x1_S50000x128_0_1 n)) w)
        (broadcastInDim S50000x128 ![0, 1] bcast_S1x128_S50000x128_0_1 (broadcastInDim S1x128 ![1] bcast_S128_S1x128_1 b))
      = Cert.Gcn.layer a n w (shapeCast S1x128 b casts_row) := by
  funext i
  show Host.dotGeneral dot_S50000x128_S128x128_S50000x128_1_0_0_1_n_n none _ w i + _ = _
  rw [dot_apply, biasSpread_apply]
  unfold Cert.Gcn.layer
  refine congrArg (· + _) (Finset.sum_congr rfl fun k _ => ?_)
  show (a _ * _) * _ = _
  rw [colSpread_apply]

end Cert.ReferenceIdeal.Hand

end
-- ==== Proof.RefResult.lean ====
/-
  The reference's result is the same function of the four arguments as the kernel program's: its composed term is
  three times "aggregate along the edges, scale the rows by the in-degree factors, multiply by the weights, add the
  bias", with the row scaling by the out-degree factors before each gathering — each product with a spread column a
  row scaling and each matrix product plus bias one layer of the specification, the gatherings, the sums into the
  destinations and the degree factors the very operations the kernel program applies.
-/
import proofs.«124276_j43765716746406_1_alg».proof.Proof.Gen.ReferenceIdeal.Run
import proofs.«124276_j43765716746406_1_alg».proof.Proof.RefLayer
import proofs.«124276_j43765716746406_1_alg».proof.Proof.KChain

set_option maxRecDepth 16384

noncomputable section

namespace Cert.ReferenceIdeal.Hand

open Cert.ReferenceIdeal Cert.ReferenceIdeal.Gen Idealize.ShloMosaic Idealize.ShloMosaic.TcCoe Idealize.SL.Sem

set_option maxRecDepth 131072 in
set_option maxHeartbeats 4000000 in
/-- The reference run's term is the specification's `result` of the reference's arguments. -/
theorem ref_result (m : (ℓ : Loc nD τ sig) → Buf (Elt Ideal) ℓ) (c : Dev nD) :
    Cert.ReferenceIdeal.Value.res_main_v92 (F := Ideal) m c
      = Cert.KernelIdeal.Chain.result (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.Value.res_main_v92
  rw [ref_layer, ref_layer, ref_layer, ref_scale, ref_scale, ref_scale]
  rfl

end Cert.ReferenceIdeal.Hand

end
-- ==== Proof.lean ====
/-
  The certificate of a three-layer graph convolution: a Pallas program (a row-scaling kernel and three launches of a
  fused layer kernel, with the gathering along the edges and the summing into the destinations between them on the
  host) against its plain reference.
  On the extended reals both compute one function of the features, the edge list, the weights and the biases
  (`Cert.KernelIdeal.Chain.result`): the kernels' roundings to bf16 are the identity there, a matrix product into a
  zero accumulator is the host's matrix product, and the kernel program merely does each layer's closing row scaling
  inside the layer kernel instead of before the next gathering. No law of arithmetic is needed beyond that, so the
  precondition is never opened. The idealization rewrote nothing, so `preserves` is trivial.
-/
import proofs.«124276_j43765716746406_1_alg».proof.Defs
import proofs.«124276_j43765716746406_1_alg».proof.Proof.Gen.Kernel
import proofs.«124276_j43765716746406_1_alg».proof.Proof.Gen.Kernel.Frame
import proofs.«124276_j43765716746406_1_alg».proof.Proof.Gen.KernelIdeal
import proofs.«124276_j43765716746406_1_alg».proof.Proof.Gen.KernelIdeal.Frame
import proofs.«124276_j43765716746406_1_alg».proof.Proof.Gen.ReferenceIdeal
import proofs.«124276_j43765716746406_1_alg».proof.Proof.Gen.ReferenceIdeal.Run
import proofs.«124276_j43765716746406_1_alg».proof.Proof.Gen.Pre_finite_inputs
import proofs.«124276_j43765716746406_1_alg».proof.Proof.KRun
import proofs.«124276_j43765716746406_1_alg».proof.Proof.KChain
import proofs.«124276_j43765716746406_1_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both programs end with the specification's `result` of the (agreeing) arguments in their result arrays. -/
theorem algebraic : Cert.algebraic_KernelIdeal_ReferenceIdeal := by
  intro m ρ m' ρ' _ hagree
  refine ⟨fun c => Cert.KernelIdeal.Chain.result (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)), ?_, ?_⟩
  · exact (θ_run Cert.KernelIdeal.defs _ _).mono (fun _ h c => ⟨(h c).1.trans (Cert.KernelIdeal.Chain.out8 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Hand.ref_result m' c, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
